-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 78
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x1, .f32⟩
  | .hbm, ⟨56, _⟩ => ⟨S50000x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S1x64, .f32⟩
  | .hbm, ⟨77, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x128, .f32⟩
  | .hbm, ⟨89, _⟩ => ⟨S_, .f32⟩
  | .hbm, ⟨90, _⟩ => ⟨S50000x128, .f32⟩
  | .hbm, ⟨91, _⟩ => ⟨S800000x1, .i32⟩
  | .hbm, ⟨92, _⟩ => ⟨S50000x128, .f32⟩
  | .hbm, ⟨93, _⟩ => ⟨S_, .f32⟩
  | .hbm, ⟨94, _⟩ => ⟨S800000, .f32⟩
  | .hbm, ⟨95, _⟩ => ⟨S_, .f32⟩
  | .hbm, ⟨96, _⟩ => ⟨S50000, .f32⟩
  | .hbm, ⟨97, _⟩ => ⟨S800000x1, .i32⟩
  | .hbm, ⟨98, _⟩ => ⟨S50000, .f32⟩
  | .hbm, ⟨99, _⟩ => ⟨S_, .f32⟩
  | .hbm, ⟨100, _⟩ => ⟨S50000, .f32⟩
  | .hbm, ⟨101, _⟩ => ⟨S50000, .f32⟩
  | .hbm, ⟨102, _⟩ => ⟨S50000x1, .f32⟩
  | .hbm, ⟨103, _⟩ => ⟨S50000x128, .f32⟩
  | .hbm, ⟨104, _⟩ => ⟨S50000x128, .f32⟩
  | .hbm, ⟨105, _⟩ => ⟨S50000x64, .f32⟩
  | .hbm, ⟨106, _⟩ => ⟨S50000x64, .f32⟩
  | .hbm, ⟨107, _⟩ => ⟨S50000x64, .f32⟩
  | .hbm, ⟨108, _⟩ => ⟨S1x64, .f32⟩
  | .hbm, ⟨109, _⟩ => ⟨S50000x64, .f32⟩
  | .hbm, ⟨110, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The kernel's run with its result named. Every weakly fair execution of the kernel's @main — three stretches of host
  lines, each followed by one kernel region — terminates without a fault; the argument arrays end as launched, and
  the result array ends at what the last segment boundary holds for it: the buffer contents are carried from the
  launch through the six segments (a stretch applies its host lines; a region replaces its arrays by what its
  write-backs leave and keeps every other buffer), and the final memory is read against the last boundary's
  contents at the result buffer as well as at the twelve arguments.
-/
import proofs.«157840_j54443005444676_1_alg».proof.Proof.Patched.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer at the last boundary's contents, the arguments as launched. -/
theorem run_out : θ_run defs (onTc (τ := τ) (main (F := F))) ⟨m, fun _ => 0, ρ⟩ (fun r => ∀ c : Dev nD,
      r.2.mem ((c.tc : Thread nD τ).loc main_v52) = W6 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v52 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.Gen

end
-- ==== Proof.LibPlainDot.lean ====
/-
  A matrix product with the plain dimension numbers — an [M, K] operand against a [K, N] operand, contracting the
  left operand's second axis with the right operand's first, no batch axis — read at one entry of the result.
  Over the extended reals both the matrix unit's product into a zero accumulator and the host's `dot_general` are,
  at row `p` and column `q`, the sum over `k : Fin K` of `lhs (p, k) * rhs (k, q)`: the contraction index, a
  one-coordinate index of the contracted shape, is re-indexed by its coordinate. Generic in `M`, `K`, `N`.
-/
import Idealize.ShloMosaic.PureOps.Ideal.Laws
import Idealize.ShloMosaic.Lib.ValueIdx

noncomputable section

namespace LibPlainDot

open Idealize.ShloMosaic Idealize.ShloMosaic.ValueIdx

variable {M K N : Nat}

/-- The contraction index whose one coordinate is `k`. -/
abbrev kIdx (k : Fin K) : (DotDims.plain M K N).contr.Idx :=
  (contrEquiv1 (DotDims.plain M K N) K rfl rfl).symm k

/-- The left operand is read at row `p`, column `k`. -/
theorem lhsIdx_plain (p : Fin M) (q : Fin N) (k : Fin K) :
    (DotDims.plain M K N).lhsIdx (ix2 p q) (kIdx k) = ix2 p k := by
  funext a
  apply Fin.ext
  match a with
  | ⟨0, _⟩ => rfl
  | ⟨1, _⟩ =>
    exact ((DotDims.plain M K N).lhsIdx_val_of_single (cl := (1 : Fin 2)) rfl (ix2 p q) (kIdx k)).trans
      (contrEquiv1_symm_val (DotDims.plain M K N) K rfl rfl k)

/-- The right operand is read at row `k`, column `q`. -/
theorem rhsIdx_plain (p : Fin M) (q : Fin N) (k : Fin K) :
    (DotDims.plain M K N).rhsIdx (ix2 p q) (kIdx k) = ix2 k q := by
  funext a
  apply Fin.ext
  match a with
  | ⟨0, _⟩ =>
    exact ((DotDims.plain M K N).rhsIdx_val_of_single (cr := (0 : Fin 2)) rfl (ix2 p q) (kIdx k)).trans
      (contrEquiv1_symm_val (DotDims.plain M K N) K rfl rfl k)
  | ⟨1, _⟩ => rfl

/-- The sum over the contracted shape is the sum over `k : Fin K` of the row entry times the column entry. -/
theorem sum_plain (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_plain p q k, rhsIdx_plain p q k]

/-- The matrix unit's product into the zero accumulator, at row `p` and column `q`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (sum_plain lhs rhs p q)

/-- The host's `dot_general`, at row `p` and column `q`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (sum_plain lhs rhs p q)

end LibPlainDot

end
-- ==== Proof.SageSpec.lean ====
/-
  One layer of the mean-aggregating graph convolution, entry by entry, over the extended reals.
  With node features `h` [R, 128], the neighbour means `mean` [R, 128], the two weight matrices `Ws`, `Wn` [128, D]
  and the bias `b`, entry (r, j) of the layer before its activation is
      (∑ₖ h(r, k) · Ws(k, j)  +  ∑ₖ mean(r, k) · Wn(k, j))  +  b(j),
  the two sums over the 128 input features, in this order of additions. A layer with the rectifier takes the maximum
  of that with zero.
  The one law that joins a mean computed as `sum · (1 / max(degree, 1))` to a mean computed as
  `sum / max(degree, 1)`: the divisor is at least one, so it is not zero, and off zero the division of the extended
  reals IS the product with the inverse — for every extended real in the numerator, the infinities included, and
  also when the divisor is +∞. No finiteness is used.
-/
import Idealize.ShloMosaic.PureOps.Ideal.Laws
import Idealize.ShloMosaic.Lib.ValueIdx

noncomputable section

namespace Cert.Sage

open Idealize.ShloMosaic Idealize.ShloMosaic.ValueIdx

/-- Entry (r, j) of a layer before the activation. -/
def pre {R D : ℕ} (h mean : FVec Ideal ⟨2, ![R, 128]⟩ .f32) (Ws Wn : FVec Ideal ⟨2, ![128, D]⟩ .f32)
    (b : Fin D → EReal) (r : Fin R) (j : Fin D) : EReal :=
  ((∑ k : Fin 128, h (ix2 r k) * Ws (ix2 k j)) + (∑ k : Fin 128, mean (ix2 r k) * Wn (ix2 k j))) + b j

/-- The layer as a whole array: the activation of `pre` at every entry. -/
def layer {R D : ℕ} (act : EReal → EReal) (h mean : FVec Ideal ⟨2, ![R, 128]⟩ .f32)
    (Ws Wn : FVec Ideal ⟨2, ![128, D]⟩ .f32) (b : Fin D → EReal) : FVec Ideal ⟨2, ![R, D]⟩ .f32 :=
  fun i => act (pre h mean Ws Wn b (i 0) (i 1))

theorem layer_apply {R D : ℕ} (act : EReal → EReal) (h mean : FVec Ideal ⟨2, ![R, 128]⟩ .f32)
    (Ws Wn : FVec Ideal ⟨2, ![128, D]⟩ .f32) (b : Fin D → EReal) (r : Fin R) (j : Fin D) :
    layer act h mean Ws Wn b (ix2 r j) = act (pre h mean Ws Wn b r j) := rfl

/-- Two entries agree when their rows of features and of means, their columns of weights and their bias agree:
    how an entry of a block is an entry of the whole array. -/
theorem pre_congr {R R' D : ℕ} {h mean : FVec Ideal ⟨2, ![R, 128]⟩ .f32} {h' mean' : FVec Ideal ⟨2, ![R', 128]⟩ .f32}
    {Ws Wn Ws' Wn' : FVec Ideal ⟨2, ![128, D]⟩ .f32} {b b' : Fin D → EReal} {r : Fin R} {r' : Fin R'} {j j' : Fin D}
    (hh : ∀ k, h (ix2 r k) = h' (ix2 r' k)) (hm : ∀ k, mean (ix2 r k) = mean' (ix2 r' k))
    (hws : ∀ k, Ws (ix2 k j) = Ws' (ix2 k j')) (hwn : ∀ k, Wn (ix2 k j) = Wn' (ix2 k j')) (hb : b j = b' j') :
    pre h mean Ws Wn b r j = pre h' mean' Ws' Wn' b' r' j' := by
  unfold pre
  simp only [hh, hm, hws, hwn, hb]

/-- The rectifier. -/
def relu (x : EReal) : EReal := max x 0

/-- The f32 pattern of one denotes the real one. -/
theorem one_f32 : Ideal.ofBits .f32 0x3F800000#32 = 1 := by
  simp [Ideal.ofBits, Ideal.ieee, -EReal.coe_mul]; norm_num

/-- A maximum with one is not zero. -/
theorem max_one_ne_zero (a : EReal) : max a 1 ≠ 0 :=
  (lt_of_lt_of_le zero_lt_one (le_max_right a 1)).ne'

/-- The product with the reciprocal of a divisor that is at least one is the quotient by it. -/
theorem mul_recip_eq_div (x a : EReal) : x * Ideal.div 1 (max a 1) = Ideal.div x (max a 1) := by
  unfold Ideal.div
  rw [if_neg (max_one_ne_zero a), if_neg (max_one_ne_zero a), one_mul]

end Cert.Sage

end
-- ==== Proof.KernelPayload.lean ====
/-
  What one grid step of each of the three convolution kernels stores, read at one entry, over the extended reals.
  The body loads a block of 5000 rows of the node features and of the neighbour means, the two whole weight matrices
  and the bias row, multiplies each block into a zero accumulator, adds the two products, adds the bias row to every
  row and (in the first two layers) takes the maximum with zero. A change of float format is the identity and a shape
  cast to the same shape is the identity, so at row p and column q of the block the stored value is the layer's entry
  `Cert.Sage.pre` of the loaded blocks, rectified in layers 0 and 1 and as it is in layer 2.
-/
import proofs.«157840_j54443005444676_1_alg».proof.Proof.Gen.KernelIdeal.Skeleton
import proofs.«157840_j54443005444676_1_alg».proof.Proof.LibPlainDot
import proofs.«157840_j54443005444676_1_alg».proof.Proof.SageSpec
import Idealize.ShloMosaic.Lib.ValueLayout

noncomputable section

namespace Cert.KernelIdeal.Payload

open Cert.KernelIdeal Cert.KernelIdeal.Gen Idealize.ShloMosaic Idealize.ShloMosaic.ValueIdx

/-- The printed dimension numbers of the two 128-wide products are the plain ones. -/
theorem dot128_plain : dot_S5000x128_S128x128_S5000x128_1_0_0_1_n_n = DotDims.plain 5000 128 128 := rfl

/-- The printed dimension numbers of the 64-wide product are the plain ones. -/
theorem dot64_plain : dot_S5000x128_S128x64_S5000x64_1_0_0_1_n_n = DotDims.plain 5000 128 64 := rfl

/-- Layer 0's stored block at (p, q). -/
theorem pay0_apply (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q)
      = Cert.Sage.relu (Cert.Sage.pre x0 x1 x2 x3 (fun j => x4 (ix2 (0 : Fin 1) j)) p q) := by
  unfold k0_pay1
  simp only [shapeCast_self]
  rw [dot128_plain]
  show max ((FloatOps.matmul (F := Ideal) (DotDims.plain 5000 128 128) none (truncf (F := Ideal) .bf16 x0 bitsLt_bf16_f32) (truncf (F := Ideal) .bf16 x2 bitsLt_bf16_f32) (constant (F := Ideal) S5000x128 .f32 0x00000000#32) (ix2 p q)
        + FloatOps.matmul (F := Ideal) (DotDims.plain 5000 128 128) none (truncf (F := Ideal) .bf16 x1 bitsLt_bf16_f32) (truncf (F := Ideal) .bf16 x3 bitsLt_bf16_f32) (constant (F := Ideal) S5000x128 .f32 0x00000000#32) (ix2 p q))
        + broadcastTo S5000x128 x4 broadcasts_S1x128_S5000x128 (ix2 p q)) (Ideal.ofBits .f32 0x00000000#32) = _
  rw [LibPlainDot.matmul_zero_apply, LibPlainDot.matmul_zero_apply, broadcastTo_1b_ab_apply, Ideal.ofBits_zero_f32]
  rfl

/-- Layer 1's stored block at (p, q). -/
theorem pay1_apply (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q)
      = Cert.Sage.relu (Cert.Sage.pre x0 x1 x2 x3 (fun j => x4 (ix2 (0 : Fin 1) j)) p q) := by
  unfold k1_pay1
  simp only [shapeCast_self]
  rw [dot128_plain]
  show max ((FloatOps.matmul (F := Ideal) (DotDims.plain 5000 128 128) none (truncf (F := Ideal) .bf16 x0 bitsLt_bf16_f32) (truncf (F := Ideal) .bf16 x2 bitsLt_bf16_f32) (constant (F := Ideal) S5000x128 .f32 0x00000000#32) (ix2 p q)
        + FloatOps.matmul (F := Ideal) (DotDims.plain 5000 128 128) none (truncf (F := Ideal) .bf16 x1 bitsLt_bf16_f32) (truncf (F := Ideal) .bf16 x3 bitsLt_bf16_f32) (constant (F := Ideal) S5000x128 .f32 0x00000000#32) (ix2 p q))
        + broadcastTo S5000x128 x4 broadcasts_S1x128_S5000x128 (ix2 p q)) (Ideal.ofBits .f32 0x00000000#32) = _
  rw [LibPlainDot.matmul_zero_apply, LibPlainDot.matmul_zero_apply, broadcastTo_1b_ab_apply, Ideal.ofBits_zero_f32]
  rfl

/-- Layer 2's stored block at (p, q): 64 columns, no rectifier. -/
theorem pay2_apply (x0 x1 : Vec Ideal S5000x128 .f32) (x2 x3 : Vec Ideal S128x64 .f32) (x4 : Vec Ideal S1x64 .f32)
    (p : Fin 5000) (q : Fin 64) :
    k2_pay1 (F := Ideal) x0 x1 x2 x3 x4 (ix2 p q)
      = Cert.Sage.pre x0 x1 x2 x3 (fun j => x4 (ix2 (0 : Fin 1) j)) p q := by
  unfold k2_pay1
  simp only [shapeCast_self]
  rw [dot64_plain]
  show (FloatOps.matmul (F := Ideal) (DotDims.plain 5000 128 64) none (truncf (F := Ideal) .bf16 x0 bitsLt_bf16_f32) (truncf (F := Ideal) .bf16 x2 bitsLt_bf16_f32) (constant (F := Ideal) S5000x64 .f32 0x00000000#32) (ix2 p q)
        + FloatOps.matmul (F := Ideal) (DotDims.plain 5000 128 64) none (truncf (F := Ideal) .bf16 x1 bitsLt_bf16_f32) (truncf (F := Ideal) .bf16 x3 bitsLt_bf16_f32) (constant (F := Ideal) S5000x64 .f32 0x00000000#32) (ix2 p q))
        + broadcastTo S5000x64 x4 broadcasts_S1x64_S5000x64 (ix2 p q) = _
  rw [LibPlainDot.matmul_zero_apply, LibPlainDot.matmul_zero_apply, broadcastTo_1b_ab_apply]
  rfl

end Cert.KernelIdeal.Payload

end
-- ==== Proof.RegionValue0.lean ====
/-
  What kernel region 0 leaves in its result array, as one function of the arrays the region finds when it is entered.
  Every grid step t reads rows 5000·t … 5000·t + 4999 of the features and of the neighbour means, the whole weight
  matrices and the bias row, and writes back rows 5000·t … 5000·t + 4999 of the result: entry (p, q) of that block is
  the layer's entry at row 5000·t + p of the whole arrays. The ten blocks tile the 50000 rows, so the result array
  ends as the rectified layer of the whole arrays.
-/
import proofs.«157840_j54443005444676_1_alg».proof.Proof.Patched.KernelIdeal.Frame
import proofs.«157840_j54443005444676_1_alg».proof.Proof.KernelPayload
import Idealize.ShloMosaic.Lib.Pipeline.Value

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

private theorem hz : (![0, 0] : Fin 2 → Nat) = fun _ => 0 := funext fun a => by fin_cases a <;> rfl

/-! ## Region 0 -/

/-- Region 0's index maps over its ten grid steps: the features, the means and the result move together, one block
    of rows per step; the weights and the bias stay at block (0, 0). -/
theorem idx0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What region 0's result array ends holding: the rectified layer of the arrays the region finds. -/
abbrev G0 (c : Dev nD) : S50000x128.Idx → EReal :=
  Cert.Sage.layer (R := 50000) (D := 128) Cert.Sage.relu (V c main_arg0) (V c main_v20) (V c main_arg3) (V c main_arg4)
    (fun j => (V c main_v21 : S1x128.Idx → EReal) (ix2 (0 : Fin 1) j))

/-- What step t writes back is block t of `G0`. -/
theorem flushed0_eq (c : Dev nD) (t : Fin cfg0.N) :
    (dat0 (F := Ideal) V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx0 t
  funext y
  obtain ⟨p, q, rfl⟩ : ∃ (p : Fin 5000) (q : Fin 128), y = ix2 p q := ⟨y 0, y 1, eq_ix2 y⟩
  have hx : (win0 5).xinj (grid0.coords t) (ix2 p q) = (ix2 p q : S5000x128.Idx) := funext fun a => Fin.ext rfl
  refine Eq.trans (congrArg (k0_pay1 (F := Ideal) (iblk0 V c 0 t) (iblk0 V c 1 t) (iblk0 V c 2 t) (iblk0 V c 3 t) (iblk0 V c 4 t)) hx) ?_
  refine (Cert.KernelIdeal.Payload.pay0_apply _ _ _ _ _ p q).trans ?_
  rw [View.read_apply]
  show Cert.Sage.relu _ = Cert.Sage.relu (Cert.Sage.pre _ _ _ _ _ _ _)
  refine congrArg Cert.Sage.relu (Cert.Sage.pre_congr (fun k => ?_) (fun k => ?_) (fun k => ?_) (fun k => ?_) ?_)
  · unfold iblk0
    rw [View.read_apply]
    refine congrArg (V c main_arg0) (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  · unfold iblk0
    rw [View.read_apply]
    refine congrArg (V c main_v20) (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  · unfold iblk0
    rw [View.read_apply]
    refine congrArg (V c main_arg3) (funext fun a => Fin.ext ?_)
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  · unfold iblk0
    rw [View.read_apply]
    refine congrArg (V c main_arg4) (funext fun a => Fin.ext ?_)
    match a with
    | ⟨0, _⟩ => show win0_3.index t (0 : Fin 2) * 128 + 1 * k.val = k.val; omega
    | ⟨1, _⟩ => show win0_3.index t (1 : Fin 2) * 128 + 1 * q.val = win0_5.index t (1 : Fin 2) * 128 + 1 * q.val; omega
  · unfold iblk0
    rw [View.read_apply]
    refine congrArg (V c main_v21) (funext fun a => Fin.ext ?_)
    match a with
    | ⟨0, _⟩ => show win0_4.index t (0 : Fin 2) * 1 + 1 * 0 = 0; omega
    | ⟨1, _⟩ => show win0_4.index t (1 : Fin 2) * 128 + 1 * q.val = win0_5.index t (1 : Fin 2) * 128 + 1 * q.val; omega

/-- Every row of the result lies in some step's block: row i in step i / 5000's. -/
theorem cover0 (i : S50000x128.Idx) :
    ∃ t : Fin cfg0.N, (cfg0.win 5).flush t = true ∧ i ∈ ((cfg0.win 5).blk t).view.set := by
  have h0 : (i 0).val < 50000 := (i 0).isLt
  have h1 : (i 1).val < 128 := (i 1).isLt
  have hN : cfg0.N = 10 := N_0
  have hlt : (i 0).val / 5000 < cfg0.N := by rw [hN]; omega
  obtain ⟨-, -, -, -, -, -, -, -, -, -, e50, e51⟩ := idx0 ⟨(i 0).val / 5000, hlt⟩
  refine ⟨⟨(i 0).val / 5000, hlt⟩, flush0_5 _, ?_⟩
  show i ∈ ((View.whole main_v22).slice (win0_5.rect ⟨(i 0).val / 5000, hlt⟩)).set
  rw [View.set_slice_whole, Rect.mem_set_unit]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    rw [e50]
    show (i 0).val / 5000 * 5000 ≤ (i 0).val ∧ (i 0).val < (i 0).val / 5000 * 5000 + 5000
    omega
  | ⟨1, _⟩ =>
    show win0_5.index ⟨(i 0).val / 5000, hlt⟩ (1 : Fin 2) * 128 ≤ (i 1).val
      ∧ (i 1).val < win0_5.index ⟨(i 0).val / 5000, hlt⟩ (1 : Fin 2) * 128 + 128
    rw [e51]
    omega

/-- Region 0's result array at its exit. -/
theorem final0 (c : Dev nD) : (dat0 (F := Ideal) V c).arrAt 5 cfg0.N = G0 V c :=
  (dat0 (F := Ideal) V c).arrAt_eq_of_cover 5 (G0 V c) (fun t _ => flushed0_eq V c t) (cover0)

end Cert.KernelIdeal.Region

end
-- ==== Proof.RegionValue1.lean ====
/-
  What kernel region 1 leaves in its result array: as for region 0, with the first layer's result as the features, the
  second stretch's neighbour means, the second pair of weight matrices and the second bias row. The result array ends
  as the rectified layer of the whole arrays the region finds.
-/
import proofs.«157840_j54443005444676_1_alg».proof.Proof.Patched.KernelIdeal.Frame
import proofs.«157840_j54443005444676_1_alg».proof.Proof.KernelPayload
import Idealize.ShloMosaic.Lib.Pipeline.Value

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

private theorem hz : (![0, 0] : Fin 2 → Nat) = fun _ => 0 := funext fun a => by fin_cases a <;> rfl

/-! ## Region 1 -/

/-- Region 1's index maps over its ten grid steps: the features, the means and the result move together, one block
    of rows per step; the weights and the bias stay at block (0, 0). -/
theorem idx1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What region 1's result array ends holding: the rectified layer of the arrays the region finds. -/
abbrev G1 (c : Dev nD) : S50000x128.Idx → EReal :=
  Cert.Sage.layer (R := 50000) (D := 128) Cert.Sage.relu (V c main_v22) (V c main_v35) (V c main_arg6) (V c main_arg7)
    (fun j => (V c main_v36 : S1x128.Idx → EReal) (ix2 (0 : Fin 1) j))

/-- What step t writes back is block t of `G1`. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx1 t
  funext y
  obtain ⟨p, q, rfl⟩ : ∃ (p : Fin 5000) (q : Fin 128), y = ix2 p q := ⟨y 0, y 1, eq_ix2 y⟩
  have hx : (win1 5).xinj (grid1.coords t) (ix2 p q) = (ix2 p q : S5000x128.Idx) := funext fun a => Fin.ext rfl
  refine Eq.trans (congrArg (k1_pay1 (F := Ideal) (iblk1 V c 0 t) (iblk1 V c 1 t) (iblk1 V c 2 t) (iblk1 V c 3 t) (iblk1 V c 4 t)) hx) ?_
  refine (Cert.KernelIdeal.Payload.pay1_apply _ _ _ _ _ p q).trans ?_
  rw [View.read_apply]
  show Cert.Sage.relu _ = Cert.Sage.relu (Cert.Sage.pre _ _ _ _ _ _ _)
  refine congrArg Cert.Sage.relu (Cert.Sage.pre_congr (fun k => ?_) (fun k => ?_) (fun k => ?_) (fun k => ?_) ?_)
  · unfold iblk1
    rw [View.read_apply]
    refine congrArg (V c main_v22) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  · unfold iblk1
    rw [View.read_apply]
    refine congrArg (V c main_v35) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  · unfold iblk1
    rw [View.read_apply]
    refine congrArg (V c main_arg6) (funext fun a => Fin.ext ?_)
    match a with
    | ⟨0, _⟩ => show win1_2.index t (0 : Fin 2) * 128 + 1 * k.val = k.val; omega
    | ⟨1, _⟩ => show win1_2.index t (1 : Fin 2) * 128 + 1 * q.val = win1_5.index t (1 : Fin 2) * 128 + 1 * q.val; omega
  · unfold iblk1
    rw [View.read_apply]
    refine congrArg (V c main_arg7) (funext fun a => Fin.ext ?_)
    match a with
    | ⟨0, _⟩ => show win1_3.index t (0 : Fin 2) * 128 + 1 * k.val = k.val; omega
    | ⟨1, _⟩ => show win1_3.index t (1 : Fin 2) * 128 + 1 * q.val = win1_5.index t (1 : Fin 2) * 128 + 1 * q.val; omega
  · unfold iblk1
    rw [View.read_apply]
    refine congrArg (V c main_v36) (funext fun a => Fin.ext ?_)
    match a with
    | ⟨0, _⟩ => show win1_4.index t (0 : Fin 2) * 1 + 1 * 0 = 0; omega
    | ⟨1, _⟩ => show win1_4.index t (1 : Fin 2) * 128 + 1 * q.val = win1_5.index t (1 : Fin 2) * 128 + 1 * q.val; omega

/-- Every row of the result lies in some step's block: row i in step i / 5000's. -/
theorem cover1 (i : S50000x128.Idx) :
    ∃ t : Fin cfg1.N, (cfg1.win 5).flush t = true ∧ i ∈ ((cfg1.win 5).blk t).view.set := by
  have h0 : (i 0).val < 50000 := (i 0).isLt
  have h1 : (i 1).val < 128 := (i 1).isLt
  have hN : cfg1.N = 10 := N_1
  have hlt : (i 0).val / 5000 < cfg1.N := by rw [hN]; omega
  obtain ⟨-, -, -, -, -, -, -, -, -, -, e50, e51⟩ := idx1 ⟨(i 0).val / 5000, hlt⟩
  refine ⟨⟨(i 0).val / 5000, hlt⟩, flush1_5 _, ?_⟩
  show i ∈ ((View.whole main_v37).slice (win1_5.rect ⟨(i 0).val / 5000, hlt⟩)).set
  rw [View.set_slice_whole, Rect.mem_set_unit]
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, hlt⟩ (1 : Fin 2) * 128 ≤ (i 1).val
      ∧ (i 1).val < win1_5.index ⟨(i 0).val / 5000, hlt⟩ (1 : Fin 2) * 128 + 128
    rw [e51]
    omega

/-- Region 1's result array at its exit. -/
theorem final1 (c : Dev nD) : (dat1 (F := Ideal) V c).arrAt 5 cfg1.N = G1 V c :=
  (dat1 (F := Ideal) V c).arrAt_eq_of_cover 5 (G1 V c) (fun t _ => flushed1_eq V c t) (cover1)

end Cert.KernelIdeal.Region

end
-- ==== Proof.RegionValue2.lean ====
/-
  What kernel region 2 leaves in its result array: as for regions 0 and 1, with 64 result columns and no rectifier.
  Every grid step writes back a block of 5000 rows and 64 columns; the ten blocks tile the [50000, 64] result, which
  ends as the layer of the whole arrays the region finds.
-/
import proofs.«157840_j54443005444676_1_alg».proof.Proof.Patched.KernelIdeal.Frame
import proofs.«157840_j54443005444676_1_alg».proof.Proof.KernelPayload
import Idealize.ShloMosaic.Lib.Pipeline.Value

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

private theorem hz : (![0, 0] : Fin 2 → Nat) = fun _ => 0 := funext fun a => by fin_cases a <;> rfl

/-! ## Region 2 -/

/-- Region 2's index maps over its ten grid steps: the features, the means and the result move together, one block
    of rows per step; the weights and the bias stay at block (0, 0). -/
theorem idx2 : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What region 2's result array ends holding: the layer, with no rectifier, of the arrays the region finds. -/
abbrev G2 (c : Dev nD) : S50000x64.Idx → EReal :=
  Cert.Sage.layer (R := 50000) (D := 64) id (V c main_v37) (V c main_v50) (V c main_arg9) (V c main_arg10)
    (fun j => (V c main_v51 : S1x64.Idx → EReal) (ix2 (0 : Fin 1) j))

/-- What step t writes back is block t of `G2`. -/
theorem flushed2_eq (c : Dev nD) (t : Fin cfg2.N) :
    (dat2 (F := Ideal) V c).flushed 5 t = ((cfg2.win 5).blk t).view.read (Elt Ideal) (G2 V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x64) hz, View.ld_unit_zero (S := S1x64) hz]
  obtain ⟨e00, e01, e10, e11, e20, e21, e30, e31, e40, e41, e50, e51⟩ := idx2 t
  funext y
  obtain ⟨p, q, rfl⟩ : ∃ (p : Fin 5000) (q : Fin 64), y = ix2 p q := ⟨y 0, y 1, eq_ix2 y⟩
  have hx : (win2 5).xinj (grid2.coords t) (ix2 p q) = (ix2 p q : S5000x64.Idx) := funext fun a => Fin.ext rfl
  refine Eq.trans (congrArg (k2_pay1 (F := Ideal) (iblk2 V c 0 t) (iblk2 V c 1 t) (iblk2 V c 2 t) (iblk2 V c 3 t) (iblk2 V c 4 t)) hx) ?_
  refine (Cert.KernelIdeal.Payload.pay2_apply _ _ _ _ _ p q).trans ?_
  rw [View.read_apply]
  refine Eq.trans (b := Cert.Sage.pre (R := 50000) (D := 64) (V c main_v37) (V c main_v50) (V c main_arg9) (V c main_arg10)
      (fun j => (V c main_v51 : S1x64.Idx → EReal) (ix2 (0 : Fin 1) j))
      ((((View.whole main_v52).slice ((win2 5).rect t)).emb (ix2 p q)) 0)
      ((((View.whole main_v52).slice ((win2 5).rect t)).emb (ix2 p q)) 1))
    (Cert.Sage.pre_congr (fun k => ?_) (fun k => ?_) (fun k => ?_) (fun k => ?_) ?_) rfl
  · unfold iblk2
    rw [View.read_apply]
    refine congrArg (V c main_v37) (funext fun a => Fin.ext ?_)
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * k.val = k.val; omega
  · unfold iblk2
    rw [View.read_apply]
    refine congrArg (V c main_v50) (funext fun a => Fin.ext ?_)
    match a with
    | ⟨0, _⟩ => show win2_1.index t (0 : Fin 2) * 5000 + 1 * p.val = win2_5.index t (0 : Fin 2) * 5000 + 1 * p.val; omega
    | ⟨1, _⟩ => show win2_1.index t (1 : Fin 2) * 128 + 1 * k.val = k.val; omega
  · unfold iblk2
    rw [View.read_apply]
    refine congrArg (V c main_arg9) (funext fun a => Fin.ext ?_)
    match a with
    | ⟨0, _⟩ => show win2_2.index t (0 : Fin 2) * 128 + 1 * k.val = k.val; omega
    | ⟨1, _⟩ => show win2_2.index t (1 : Fin 2) * 64 + 1 * q.val = win2_5.index t (1 : Fin 2) * 64 + 1 * q.val; omega
  · unfold iblk2
    rw [View.read_apply]
    refine congrArg (V c main_arg10) (funext fun a => Fin.ext ?_)
    match a with
    | ⟨0, _⟩ => show win2_3.index t (0 : Fin 2) * 128 + 1 * k.val = k.val; omega
    | ⟨1, _⟩ => show win2_3.index t (1 : Fin 2) * 64 + 1 * q.val = win2_5.index t (1 : Fin 2) * 64 + 1 * q.val; omega
  · unfold iblk2
    rw [View.read_apply]
    refine congrArg (V c main_v51) (funext fun a => Fin.ext ?_)
    match a with
    | ⟨0, _⟩ => show win2_4.index t (0 : Fin 2) * 1 + 1 * 0 = 0; omega
    | ⟨1, _⟩ => show win2_4.index t (1 : Fin 2) * 64 + 1 * q.val = win2_5.index t (1 : Fin 2) * 64 + 1 * q.val; omega

/-- Every row of the result lies in some step's block: row i in step i / 5000's. -/
theorem cover2 (i : S50000x64.Idx) :
    ∃ t : Fin cfg2.N, (cfg2.win 5).flush t = true ∧ i ∈ ((cfg2.win 5).blk t).view.set := by
  have h0 : (i 0).val < 50000 := (i 0).isLt
  have h1 : (i 1).val < 64 := (i 1).isLt
  have hN : cfg2.N = 10 := N_2
  have hlt : (i 0).val / 5000 < cfg2.N := by rw [hN]; omega
  obtain ⟨-, -, -, -, -, -, -, -, -, -, e50, e51⟩ := idx2 ⟨(i 0).val / 5000, hlt⟩
  refine ⟨⟨(i 0).val / 5000, hlt⟩, flush2_5 _, ?_⟩
  show i ∈ ((View.whole main_v52).slice (win2_5.rect ⟨(i 0).val / 5000, hlt⟩)).set
  rw [View.set_slice_whole, Rect.mem_set_unit]
  intro a
  match a with
  | ⟨0, _⟩ =>
    show win2_5.index ⟨(i 0).val / 5000, hlt⟩ (0 : Fin 2) * 5000 ≤ (i 0).val
      ∧ (i 0).val < win2_5.index ⟨(i 0).val / 5000, hlt⟩ (0 : Fin 2) * 5000 + 5000
    rw [e50]
    show (i 0).val / 5000 * 5000 ≤ (i 0).val ∧ (i 0).val < (i 0).val / 5000 * 5000 + 5000
    omega
  | ⟨1, _⟩ =>
    show win2_5.index ⟨(i 0).val / 5000, hlt⟩ (1 : Fin 2) * 64 ≤ (i 1).val
      ∧ (i 1).val < win2_5.index ⟨(i 0).val / 5000, hlt⟩ (1 : Fin 2) * 64 + 64
    rw [e51]
    omega

/-- Region 2's result array at its exit. -/
theorem final2 (c : Dev nD) : (dat2 (F := Ideal) V c).arrAt 5 cfg2.N = G2 V c :=
  (dat2 (F := Ideal) V c).arrAt_eq_of_cover 5 (G2 V c) (fun t _ => flushed2_eq V c t) (cover2)

end Cert.KernelIdeal.Region

end
-- ==== Proof.HostStretch.lean ====
/-
  The three stretches of host lines of the kernel's @main, read at the buffers the kernel regions consume.
  Each stretch recomputes the same plumbing: the source index of every edge wrapped once if negative, the rows of
  the current features gathered at those indices, the gathered rows added into the row of each edge's destination
  (`agg`), and that sum multiplied by the column of reciprocal degrees copied across the features (`mean`); and it
  reshapes the layer's bias vector to a row. The reciprocal degrees `inv` — one over the larger of the in-degree and
  one, the in-degree being the scalar one added at each edge's destination — are computed once, in the first stretch.
  The gather and the two scatter-additions are kept as the host operations they are: nothing here opens them.
  Every statement is for an arbitrary valuation `X` of the buffers at the stretch's start.
-/
import proofs.«157840_j54443005444676_1_alg».proof.Proof.Patched.KernelIdeal.Launch
import Idealize.ShloMosaic.Lib.StableHlo.Run
import Idealize.ShloMosaic.PureOps.Ideal

noncomputable section

namespace Cert.KernelIdeal.Host

open Cert.KernelIdeal Cert.KernelIdeal.Gen Idealize.ShloMosaic Idealize.ShloMosaic.TcCoe Idealize.SL.Sem
open Idealize.ShloMosaic.StableHlo

/-- An edge list: 800000 words. -/
abbrev Edges : Type := IVec S800000 32
/-- Node features: [50000, 128]. -/
abbrev Feat : Type := FVec Ideal S50000x128 .f32
/-- One value per node: [50000]. -/
abbrev PerNode : Type := FVec Ideal S50000 .f32

/-- The scalar one at every node. -/
def ones : PerNode := broadcastInDim S50000 ![] bcast_S_S50000 (constant (F := Ideal) S_ .f32 0x3F800000#32)

/-- The in-degree: one added at each edge's destination, from zero. -/
def deg (dst : Edges) : PerNode :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 dst)
    (broadcastInDim S800000 ![] bcast_S_S800000 (constant (F := Ideal) S_ .f32 0x3F800000#32))

/-- One over the larger of the in-degree and one. -/
def inv (dst : Edges) : PerNode := Host.divf (F := Ideal) ones (maximumf (deg dst) ones)

/-- The rows of `h` at the edges' (wrapped) sources, added into the rows of the edges' destinations, from zero. -/
def agg (h : Feat) (src dst : Edges) : Feat :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The neighbour sum times a per-node factor copied across the features. -/
def scaled (A : Feat) (f : PerNode) : Feat :=
  mulf A (broadcastInDim S50000x128 ![0, 1] bcast_S50000x1_S50000x128_0_1 (broadcastInDim S50000x1 ![0] bcast_S50000_S50000x1_0 f))

variable (X : Valuation τ sig (Elt Ideal))

/-! ## The first stretch (29 lines) -/

set_option maxHeartbeats 20000000 in
theorem ops0_v7 : after (hostOps0 (F := Ideal)) X (Proc.devRef .tc main_v7) = inv (X (Proc.devRef .tc main_arg2)) := by
  after_results; rfl

set_option maxHeartbeats 20000000 in
theorem ops0_v20 : after (hostOps0 (F := Ideal)) X (Proc.devRef .tc main_v20)
    = scaled (agg (X (Proc.devRef .tc main_arg0)) (X (Proc.devRef .tc main_arg1)) (X (Proc.devRef .tc main_arg2)))
        (inv (X (Proc.devRef .tc main_arg2))) := by
  after_results; rfl

set_option maxHeartbeats 20000000 in
theorem ops0_v21 : after (hostOps0 (F := Ideal)) X (Proc.devRef .tc main_v21)
    = shapeCast S1x128 (X (Proc.devRef .tc main_arg5)) shapeCasts_S128_S1x128 := by
  after_results; rfl

theorem ops0_keep_main_arg0 : after (hostOps0 (F := Ideal)) X (Proc.devRef .tc main_arg0) = X (Proc.devRef .tc main_arg0) := by after_results
theorem ops0_keep_main_arg1 : after (hostOps0 (F := Ideal)) X (Proc.devRef .tc main_arg1) = X (Proc.devRef .tc main_arg1) := by after_results
theorem ops0_keep_main_arg2 : after (hostOps0 (F := Ideal)) X (Proc.devRef .tc main_arg2) = X (Proc.devRef .tc main_arg2) := by after_results
theorem ops0_keep_main_arg3 : after (hostOps0 (F := Ideal)) X (Proc.devRef .tc main_arg3) = X (Proc.devRef .tc main_arg3) := by after_results
theorem ops0_keep_main_arg4 : after (hostOps0 (F := Ideal)) X (Proc.devRef .tc main_arg4) = X (Proc.devRef .tc main_arg4) := by after_results
theorem ops0_keep_main_arg6 : after (hostOps0 (F := Ideal)) X (Proc.devRef .tc main_arg6) = X (Proc.devRef .tc main_arg6) := by after_results
theorem ops0_keep_main_arg7 : after (hostOps0 (F := Ideal)) X (Proc.devRef .tc main_arg7) = X (Proc.devRef .tc main_arg7) := by after_results
theorem ops0_keep_main_arg8 : after (hostOps0 (F := Ideal)) X (Proc.devRef .tc main_arg8) = X (Proc.devRef .tc main_arg8) := by after_results
theorem ops0_keep_main_arg9 : after (hostOps0 (F := Ideal)) X (Proc.devRef .tc main_arg9) = X (Proc.devRef .tc main_arg9) := by after_results
theorem ops0_keep_main_arg10 : after (hostOps0 (F := Ideal)) X (Proc.devRef .tc main_arg10) = X (Proc.devRef .tc main_arg10) := by after_results
theorem ops0_keep_main_arg11 : after (hostOps0 (F := Ideal)) X (Proc.devRef .tc main_arg11) = X (Proc.devRef .tc main_arg11) := by after_results

/-! ## The second stretch (17 lines) -/

set_option maxHeartbeats 20000000 in
theorem ops1_v35 : after (hostOps1 (F := Ideal)) X (Proc.devRef .tc main_v35)
    = scaled (agg (X (Proc.devRef .tc main_v22)) (X (Proc.devRef .tc main_arg1)) (X (Proc.devRef .tc main_arg2)))
        (X (Proc.devRef .tc main_v7)) := by
  after_results; rfl

set_option maxHeartbeats 20000000 in
theorem ops1_v36 : after (hostOps1 (F := Ideal)) X (Proc.devRef .tc main_v36)
    = shapeCast S1x128 (X (Proc.devRef .tc main_arg8)) shapeCasts_S128_S1x128 := by
  after_results; rfl

theorem ops1_keep_main_v22 : after (hostOps1 (F := Ideal)) X (Proc.devRef .tc main_v22) = X (Proc.devRef .tc main_v22) := by after_results
theorem ops1_keep_main_v7 : after (hostOps1 (F := Ideal)) X (Proc.devRef .tc main_v7) = X (Proc.devRef .tc main_v7) := by after_results
theorem ops1_keep_main_arg1 : after (hostOps1 (F := Ideal)) X (Proc.devRef .tc main_arg1) = X (Proc.devRef .tc main_arg1) := by after_results
theorem ops1_keep_main_arg2 : after (hostOps1 (F := Ideal)) X (Proc.devRef .tc main_arg2) = X (Proc.devRef .tc main_arg2) := by after_results
theorem ops1_keep_main_arg6 : after (hostOps1 (F := Ideal)) X (Proc.devRef .tc main_arg6) = X (Proc.devRef .tc main_arg6) := by after_results
theorem ops1_keep_main_arg7 : after (hostOps1 (F := Ideal)) X (Proc.devRef .tc main_arg7) = X (Proc.devRef .tc main_arg7) := by after_results
theorem ops1_keep_main_arg9 : after (hostOps1 (F := Ideal)) X (Proc.devRef .tc main_arg9) = X (Proc.devRef .tc main_arg9) := by after_results
theorem ops1_keep_main_arg10 : after (hostOps1 (F := Ideal)) X (Proc.devRef .tc main_arg10) = X (Proc.devRef .tc main_arg10) := by after_results
theorem ops1_keep_main_arg11 : after (hostOps1 (F := Ideal)) X (Proc.devRef .tc main_arg11) = X (Proc.devRef .tc main_arg11) := by after_results

/-! ## The third stretch (17 lines) -/

set_option maxHeartbeats 20000000 in
theorem ops2_v50 : after (hostOps2 (F := Ideal)) X (Proc.devRef .tc main_v50)
    = scaled (agg (X (Proc.devRef .tc main_v37)) (X (Proc.devRef .tc main_arg1)) (X (Proc.devRef .tc main_arg2)))
        (X (Proc.devRef .tc main_v7)) := by
  after_results; rfl

set_option maxHeartbeats 20000000 in
theorem ops2_v51 : after (hostOps2 (F := Ideal)) X (Proc.devRef .tc main_v51)
    = shapeCast S1x64 (X (Proc.devRef .tc main_arg11)) shapeCasts_S64_S1x64 := by
  after_results; rfl

theorem ops2_keep_main_v37 : after (hostOps2 (F := Ideal)) X (Proc.devRef .tc main_v37) = X (Proc.devRef .tc main_v37) := by after_results
theorem ops2_keep_main_arg9 : after (hostOps2 (F := Ideal)) X (Proc.devRef .tc main_arg9) = X (Proc.devRef .tc main_arg9) := by after_results
theorem ops2_keep_main_arg10 : after (hostOps2 (F := Ideal)) X (Proc.devRef .tc main_arg10) = X (Proc.devRef .tc main_arg10) := by after_results

end Cert.KernelIdeal.Host

end
-- ==== Proof.KernelValue.lean ====
/-
  The kernel's result as a function of its arguments. The buffer contents are followed through @main's six segments:
  the first stretch of host lines leaves the neighbour means of the input features and the first bias as a row;
  region 0 leaves the first rectified layer `K1` in its result array and keeps every other buffer; the second stretch
  forms the neighbour means of `K1` with the reciprocal degrees computed in the first stretch; region 1 leaves the
  second rectified layer `K2`; the third stretch forms the neighbour means of `K2`; region 2 leaves the last layer
  `K3`, 64 columns wide and not rectified, in the result buffer. Each layer is `Cert.Sage.layer` of the features, of
  `agg` scaled by the reciprocal degrees, of the two weight matrices and of the bias row.
-/
import proofs.«157840_j54443005444676_1_alg».proof.Proof.KernelRun
import proofs.«157840_j54443005444676_1_alg».proof.Proof.RegionValue0
import proofs.«157840_j54443005444676_1_alg».proof.Proof.RegionValue1
import proofs.«157840_j54443005444676_1_alg».proof.Proof.RegionValue2
import proofs.«157840_j54443005444676_1_alg».proof.Proof.HostStretch

set_option maxRecDepth 16384

noncomputable section

namespace Cert.KernelIdeal.Chain

open Cert.KernelIdeal Cert.KernelIdeal.Gen Cert.KernelIdeal.Host Cert.KernelIdeal.Region
open Idealize.ShloMosaic Idealize.ShloMosaic.TcCoe Idealize.SL.Sem Idealize.ShloMosaic.ValueIdx

/-- A layer is determined by its five operands. -/
theorem layer_congr {R D : ℕ} {act : EReal → EReal} {h h' mean mean' : FVec Ideal ⟨2, ![R, 128]⟩ .f32}
    {Ws Ws' Wn Wn' : FVec Ideal ⟨2, ![128, D]⟩ .f32} {b b' : Fin D → EReal}
    (e0 : h = h') (e1 : mean = mean') (e2 : Ws = Ws') (e3 : Wn = Wn') (e4 : b = b') :
    Cert.Sage.layer act h mean Ws Wn b = Cert.Sage.layer act h' mean' Ws' Wn' b' := by
  subst e0 e1 e2 e3 e4; rfl

/-- A bias vector reshaped to one row, read along the row. -/
def bias128 (b : FVec Ideal S128 .f32) : Fin 128 → EReal :=
  fun j => shapeCast S1x128 b shapeCasts_S128_S1x128 (ix2 (0 : Fin 1) j)
def bias64 (b : FVec Ideal S64 .f32) : Fin 64 → EReal :=
  fun j => shapeCast S1x64 b shapeCasts_S64_S1x64 (ix2 (0 : Fin 1) j)

variable (m : (ℓ : Loc nD τ sig) → Buf (Elt Ideal) ℓ) (ρ : Dev nD → PrngReg) (c : Dev nD)

/-- The neighbour means of `h`: `agg` scaled by the reciprocal degrees. -/
abbrev meanOf (h : Feat) : Feat := scaled (agg h (m ((c : Thread nD τ).loc main_arg1)) (m ((c : Thread nD τ).loc main_arg2))) (inv (m ((c : Thread nD τ).loc main_arg2)))

/-- The first layer. -/
def K1 : FVec Ideal S50000x128 .f32 :=
  Cert.Sage.layer (R := 50000) (D := 128) Cert.Sage.relu (m ((c : Thread nD τ).loc main_arg0)) (meanOf m c (m ((c : Thread nD τ).loc main_arg0))) (m ((c : Thread nD τ).loc main_arg3)) (m ((c : Thread nD τ).loc main_arg4)) (bias128 (m ((c : Thread nD τ).loc main_arg5)))
/-- The second layer. -/
def K2 : FVec Ideal S50000x128 .f32 :=
  Cert.Sage.layer (R := 50000) (D := 128) Cert.Sage.relu (K1 m c) (meanOf m c (K1 m c)) (m ((c : Thread nD τ).loc main_arg6)) (m ((c : Thread nD τ).loc main_arg7)) (bias128 (m ((c : Thread nD τ).loc main_arg8)))
/-- The third layer: the result. -/
def K3 : FVec Ideal S50000x64 .f32 :=
  Cert.Sage.layer (R := 50000) (D := 64) id (K2 m c) (meanOf m c (K2 m c)) (m ((c : Thread nD τ).loc main_arg9)) (m ((c : Thread nD τ).loc main_arg10)) (bias64 (m ((c : Thread nD τ).loc main_arg11)))

/-! ## At region 0's exit -/

theorem W2_v22 : W2 m ρ c (Proc.devRef .tc main_v22) = K1 m c :=
  ((W2_arr m ρ c 5).trans (final0 (V1 m ρ) c)).trans
    (layer_congr (ops0_keep_main_arg0 (W0 m ρ c)) (ops0_v20 (W0 m ρ c)) (ops0_keep_main_arg3 (W0 m ρ c))
      (ops0_keep_main_arg4 (W0 m ρ c)) (funext fun j => congrFun (ops0_v21 (W0 m ρ c)) (ix2 (0 : Fin 1) j)))

theorem W2_v7 : W2 m ρ c (Proc.devRef .tc main_v7) = inv (m ((c : Thread nD τ).loc main_arg2)) :=
  (W2_of_ne m ρ c main_v7 (by decide)).trans (ops0_v7 (W0 m ρ c))
theorem W2_arg1 : W2 m ρ c (Proc.devRef .tc main_arg1) = m ((c : Thread nD τ).loc main_arg1) :=
  (W2_of_ne m ρ c main_arg1 (by decide)).trans (ops0_keep_main_arg1 (W0 m ρ c))
theorem W2_arg2 : W2 m ρ c (Proc.devRef .tc main_arg2) = m ((c : Thread nD τ).loc main_arg2) :=
  (W2_of_ne m ρ c main_arg2 (by decide)).trans (ops0_keep_main_arg2 (W0 m ρ c))
theorem W2_arg6 : W2 m ρ c (Proc.devRef .tc main_arg6) = m ((c : Thread nD τ).loc main_arg6) :=
  (W2_of_ne m ρ c main_arg6 (by decide)).trans (ops0_keep_main_arg6 (W0 m ρ c))
theorem W2_arg7 : W2 m ρ c (Proc.devRef .tc main_arg7) = m ((c : Thread nD τ).loc main_arg7) :=
  (W2_of_ne m ρ c main_arg7 (by decide)).trans (ops0_keep_main_arg7 (W0 m ρ c))
theorem W2_arg8 : W2 m ρ c (Proc.devRef .tc main_arg8) = m ((c : Thread nD τ).loc main_arg8) :=
  (W2_of_ne m ρ c main_arg8 (by decide)).trans (ops0_keep_main_arg8 (W0 m ρ c))
theorem W2_arg9 : W2 m ρ c (Proc.devRef .tc main_arg9) = m ((c : Thread nD τ).loc main_arg9) :=
  (W2_of_ne m ρ c main_arg9 (by decide)).trans (ops0_keep_main_arg9 (W0 m ρ c))
theorem W2_arg10 : W2 m ρ c (Proc.devRef .tc main_arg10) = m ((c : Thread nD τ).loc main_arg10) :=
  (W2_of_ne m ρ c main_arg10 (by decide)).trans (ops0_keep_main_arg10 (W0 m ρ c))
theorem W2_arg11 : W2 m ρ c (Proc.devRef .tc main_arg11) = m ((c : Thread nD τ).loc main_arg11) :=
  (W2_of_ne m ρ c main_arg11 (by decide)).trans (ops0_keep_main_arg11 (W0 m ρ c))

/-! ## At region 1's exit -/

theorem W3_v35 : W3 m ρ c (Proc.devRef .tc main_v35) = meanOf m c (K1 m c) :=
  (ops1_v35 (W2 m ρ c)).trans (by rw [W2_v22 m ρ c, W2_arg1 m ρ c, W2_arg2 m ρ c, W2_v7 m ρ c])

theorem W4_v37 : W4 m ρ c (Proc.devRef .tc main_v37) = K2 m c :=
  ((W4_arr m ρ c 5).trans (final1 (V3 m ρ) c)).trans
    (layer_congr ((ops1_keep_main_v22 (W2 m ρ c)).trans (W2_v22 m ρ c)) (W3_v35 m ρ c)
      ((ops1_keep_main_arg6 (W2 m ρ c)).trans (W2_arg6 m ρ c)) ((ops1_keep_main_arg7 (W2 m ρ c)).trans (W2_arg7 m ρ c))
      (funext fun j => (congrFun (ops1_v36 (W2 m ρ c)) (ix2 (0 : Fin 1) j)).trans (by rw [W2_arg8 m ρ c]; rfl)))

theorem W4_v7 : W4 m ρ c (Proc.devRef .tc main_v7) = inv (m ((c : Thread nD τ).loc main_arg2)) :=
  (W4_of_ne m ρ c main_v7 (by decide)).trans ((ops1_keep_main_v7 (W2 m ρ c)).trans (W2_v7 m ρ c))
theorem W4_arg1 : W4 m ρ c (Proc.devRef .tc main_arg1) = m ((c : Thread nD τ).loc main_arg1) :=
  (W4_of_ne m ρ c main_arg1 (by decide)).trans ((ops1_keep_main_arg1 (W2 m ρ c)).trans (W2_arg1 m ρ c))
theorem W4_arg2 : W4 m ρ c (Proc.devRef .tc main_arg2) = m ((c : Thread nD τ).loc main_arg2) :=
  (W4_of_ne m ρ c main_arg2 (by decide)).trans ((ops1_keep_main_arg2 (W2 m ρ c)).trans (W2_arg2 m ρ c))
theorem W4_arg9 : W4 m ρ c (Proc.devRef .tc main_arg9) = m ((c : Thread nD τ).loc main_arg9) :=
  (W4_of_ne m ρ c main_arg9 (by decide)).trans ((ops1_keep_main_arg9 (W2 m ρ c)).trans (W2_arg9 m ρ c))
theorem W4_arg10 : W4 m ρ c (Proc.devRef .tc main_arg10) = m ((c : Thread nD τ).loc main_arg10) :=
  (W4_of_ne m ρ c main_arg10 (by decide)).trans ((ops1_keep_main_arg10 (W2 m ρ c)).trans (W2_arg10 m ρ c))
theorem W4_arg11 : W4 m ρ c (Proc.devRef .tc main_arg11) = m ((c : Thread nD τ).loc main_arg11) :=
  (W4_of_ne m ρ c main_arg11 (by decide)).trans ((ops1_keep_main_arg11 (W2 m ρ c)).trans (W2_arg11 m ρ c))

/-! ## At region 2's exit: the result -/

theorem W5_v50 : W5 m ρ c (Proc.devRef .tc main_v50) = meanOf m c (K2 m c) :=
  (ops2_v50 (W4 m ρ c)).trans (by rw [W4_v37 m ρ c, W4_arg1 m ρ c, W4_arg2 m ρ c, W4_v7 m ρ c])

theorem W6_v52 : W6 m ρ c (Proc.devRef .tc main_v52) = K3 m c :=
  ((W6_arr m ρ c 5).trans (final2 (V5 m ρ) c)).trans
    (layer_congr ((ops2_keep_main_v37 (W4 m ρ c)).trans (W4_v37 m ρ c)) (W5_v50 m ρ c)
      ((ops2_keep_main_arg9 (W4 m ρ c)).trans (W4_arg9 m ρ c)) ((ops2_keep_main_arg10 (W4 m ρ c)).trans (W4_arg10 m ρ c))
      (funext fun j => (congrFun (ops2_v51 (W4 m ρ c)) (ix2 (0 : Fin 1) j)).trans (by rw [W4_arg11 m ρ c]; rfl)))

/-- The kernel's run: the result buffer ends at `K3` of the launch arguments, the arguments as launched. -/
theorem run : θ_run (defs (F := Ideal)) (onTc (τ := τ) (main (F := Ideal))) ⟨m, fun _ => 0, ρ⟩ (fun r => ∀ c : Dev nD,
      r.2.mem ((c.tc : Thread nD τ).loc main_v52) = K3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (W6_v52 m ρ c), (h c).2⟩) (run_out (F := Ideal) m ρ)

end Cert.KernelIdeal.Chain

end
-- ==== Proof.LibHostBroadcast.lean ====
/-
  The host's `broadcast_in_dim` in the four forms a keep-dims column and a bias row take, read at coordinates:
  a vector [n] laid down as a column [n, 1]; a column [n, 1] copied across m columns to [n, m]; a vector [m] laid
  down as a row [1, m]; a row [1, m] copied down n rows to [n, m]. The result at (p, q) is the operand at p, at
  (p, 0), at q, at (0, q). Generic in the extents; the axis map is given by its values.
-/
import Idealize.ShloMosaic.Lib.Pipeline.Value
import Idealize.ShloMosaic.Lib.ValueIdx

noncomputable section

namespace LibHostBroadcast

open Idealize.ShloMosaic Idealize.ShloMosaic.ValueIdx

variable {α : Type}

/-- A vector [n] as a column [n, 1] (the operand's axis goes to the result's axis 0): entry (p, u) is entry p. -/
theorem vec_to_col_apply {n : ℕ} {dims : Fin 1 → Fin 2} (hd : dims 0 = 0)
    (h : (⟨1, ![n]⟩ : Shape).BroadcastsInDim ⟨2, ![n, 1]⟩ dims) (x : (⟨1, ![n]⟩ : Shape).Idx → α)
    (p : Fin n) (u : Fin 1) : broadcastInDim ⟨2, ![n, 1]⟩ dims h x (ix2 p u) = x (ix1 p) := by
  refine broadcastInDim_apply dims h x (ix2 p u) (ix1 p) fun a => ?_
  match a with
  | ⟨0, _⟩ =>
    show p.val = if n = 1 then 0 else ((ix2 p u) (dims 0)).val
    rw [hd]
    show p.val = if n = 1 then 0 else p.val
    split_ifs with h1
    · have := p.isLt; omega
    · rfl

/-- A column [n, 1] copied across to [n, m] (axes kept in place): entry (p, q) is entry (p, 0). -/
theorem col_to_mat_apply {n m : ℕ} {dims : Fin 2 → Fin 2} (hd0 : dims 0 = 0) (hd1 : dims 1 = 1)
    (h : (⟨2, ![n, 1]⟩ : Shape).BroadcastsInDim ⟨2, ![n, m]⟩ dims) (x : (⟨2, ![n, 1]⟩ : Shape).Idx → α)
    (p : Fin n) (q : Fin m) : broadcastInDim ⟨2, ![n, m]⟩ dims h x (ix2 p q) = x (ix2 p (0 : Fin 1)) := by
  refine broadcastInDim_apply dims h x (ix2 p q) (ix2 p (0 : Fin 1)) fun a => ?_
  match a with
  | ⟨0, _⟩ =>
    show p.val = if n = 1 then 0 else ((ix2 p q) (dims 0)).val
    rw [hd0]
    show p.val = if n = 1 then 0 else p.val
    split_ifs with h1
    · have := p.isLt; omega
    · rfl
  | ⟨1, _⟩ =>
    show (0 : ℕ) = if (1 : ℕ) = 1 then 0 else ((ix2 p q) (dims 1)).val
    rw [if_pos rfl]

/-- A vector [m] as a row [1, m] (the operand's axis goes to the result's axis 1): entry (u, q) is entry q. -/
theorem vec_to_row_apply {m : ℕ} {dims : Fin 1 → Fin 2} (hd : dims 0 = 1)
    (h : (⟨1, ![m]⟩ : Shape).BroadcastsInDim ⟨2, ![1, m]⟩ dims) (x : (⟨1, ![m]⟩ : Shape).Idx → α)
    (u : Fin 1) (q : Fin m) : broadcastInDim ⟨2, ![1, m]⟩ dims h x (ix2 u q) = x (ix1 q) := by
  refine broadcastInDim_apply dims h x (ix2 u q) (ix1 q) fun a => ?_
  match a with
  | ⟨0, _⟩ =>
    show q.val = if m = 1 then 0 else ((ix2 u q) (dims 0)).val
    rw [hd]
    show q.val = if m = 1 then 0 else q.val
    split_ifs with h1
    · have := q.isLt; omega
    · rfl

/-- A row [1, m] copied down to [n, m] (axes kept in place): entry (p, q) is entry (0, q). -/
theorem row_to_mat_apply {n m : ℕ} {dims : Fin 2 → Fin 2} (hd0 : dims 0 = 0) (hd1 : dims 1 = 1)
    (h : (⟨2, ![1, m]⟩ : Shape).BroadcastsInDim ⟨2, ![n, m]⟩ dims) (x : (⟨2, ![1, m]⟩ : Shape).Idx → α)
    (p : Fin n) (q : Fin m) : broadcastInDim ⟨2, ![n, m]⟩ dims h x (ix2 p q) = x (ix2 (0 : Fin 1) q) := by
  refine broadcastInDim_apply dims h x (ix2 p q) (ix2 (0 : Fin 1) q) fun a => ?_
  match a with
  | ⟨0, _⟩ =>
    show (0 : ℕ) = if (1 : ℕ) = 1 then 0 else ((ix2 p q) (dims 0)).val
    rw [if_pos rfl]
  | ⟨1, _⟩ =>
    show q.val = if m = 1 then 0 else ((ix2 p q) (dims 1)).val
    rw [hd1]
    show q.val = if m = 1 then 0 else q.val
    split_ifs with h1
    · have := q.isLt; omega
    · rfl

end LibHostBroadcast

end
-- ==== Proof.RefLayer.lean ====
/-
  The reference's result, layer by layer. Its run ends with the result buffer at one pure term of the arguments: three
  nested layers, each `h · Ws + mean · Wn + bias` with `mean` the neighbour sum `agg` divided by the larger of the
  in-degree and one (copied across the features), the first two followed by a maximum with zero. Here that term is
  named layer by layer over the reference's own host operations, and each layer is read entry by entry: the host's
  two `dot_general`s are sums over the 128 input features, the bias is broadcast to a row and then down the rows, and
  the maximum with the broadcast zero is the rectifier. So the result is `Cert.Sage.layer` three times over.
-/
import proofs.«157840_j54443005444676_1_alg».proof.Proof.Gen.ReferenceIdeal.Run
import proofs.«157840_j54443005444676_1_alg».proof.Proof.LibPlainDot
import proofs.«157840_j54443005444676_1_alg».proof.Proof.LibHostBroadcast
import proofs.«157840_j54443005444676_1_alg».proof.Proof.SageSpec
import Idealize.ShloMosaic.Lib.IdealHost

noncomputable section

namespace Cert.ReferenceIdeal.Layers

open Cert.ReferenceIdeal Cert.ReferenceIdeal.Gen Idealize.ShloMosaic Idealize.ShloMosaic.TcCoe Idealize.SL.Sem
open Idealize.ShloMosaic.ValueIdx

/-- An edge list: 800000 words. -/
abbrev Edges : Type := IVec S800000 32
/-- Node features: [50000, 128]. -/
abbrev Feat : Type := FVec Ideal S50000x128 .f32
/-- One value per node: [50000]. -/
abbrev PerNode : Type := FVec Ideal S50000 .f32

/-- The scalar one at every node. -/
def ones : PerNode := broadcastInDim S50000 ![] bcast_S_S50000 (constant (F := Ideal) S_ .f32 0x3F800000#32)

/-- The in-degree: one added at each edge's destination, from zero. -/
def deg (dst : Edges) : PerNode :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 dst)
    (broadcastInDim S800000 ![] bcast_S_S800000 (constant (F := Ideal) S_ .f32 0x3F800000#32))

/-- The rows of `h` at the edges' (wrapped) sources, added into the rows of the edges' destinations, from zero. -/
def agg (h : Feat) (src dst : Edges) : Feat :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The neighbour sum divided by the larger of the in-degree and one, copied across the features. -/
def divided (A : Feat) (dst : Edges) : Feat :=
  Host.divf (F := Ideal) A (broadcastInDim S50000x128 ![0, 1] bcast_S50000x1_S50000x128_0_1
    (broadcastInDim S50000x1 ![0] bcast_S50000_S50000x1_0 (maximumf (deg dst) ones)))

/-- A 128-wide layer before its activation, as the host computes it. -/
def lin128 (h : Feat) (src dst : Edges) (Ws Wn : FVec Ideal S128x128 .f32)
    (b : FVec Ideal S128 .f32) : Feat :=
  addf (addf (Host.dotGeneral (F := Ideal) dot_S50000x128_S128x128_S50000x128_1_0_0_1_n_n none h Ws)
      (Host.dotGeneral (F := Ideal) dot_S50000x128_S128x128_S50000x128_1_0_0_1_n_n none (divided (agg h src dst) dst) Wn))
    (broadcastInDim S50000x128 ![0, 1] bcast_S1x128_S50000x128_0_1 (broadcastInDim S1x128 ![1] bcast_S128_S1x128_1 b))

/-- The 64-wide layer, as the host computes it. -/
def lin64 (h : Feat) (src dst : Edges) (Ws Wn : FVec Ideal S128x64 .f32)
    (b : FVec Ideal S64 .f32) : FVec Ideal S50000x64 .f32 :=
  addf (addf (Host.dotGeneral (F := Ideal) dot_S50000x128_S128x64_S50000x64_1_0_0_1_n_n none h Ws)
      (Host.dotGeneral (F := Ideal) dot_S50000x128_S128x64_S50000x64_1_0_0_1_n_n none (divided (agg h src dst) dst) Wn))
    (broadcastInDim S50000x64 ![0, 1] bcast_S1x64_S50000x64_0_1 (broadcastInDim S1x64 ![1] bcast_S64_S1x64_1 b))

/-- The maximum with the broadcast zero. -/
def rect (Y : Feat) : Feat :=
  maximumf Y (broadcastInDim S50000x128 ![] bcast_S_S50000x128 (constant (F := Ideal) S_ .f32 0x00000000#32))

/-- The run's result term is the three layers nested. -/
theorem res_eq (m : (ℓ : Loc nD τ sig) → Buf (Elt Ideal) ℓ) (c : Dev nD) :
    Cert.ReferenceIdeal.Value.res_main_v76 (F := Ideal) m c
      = lin64 (rect (lin128 (rect (lin128 (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5))))
            (m ((c.tc : Thread nD τ).loc main_arg1)) (m ((c.tc : Thread nD τ).loc main_arg2))
            (m ((c.tc : Thread nD τ).loc main_arg6)) (m ((c.tc : Thread nD τ).loc main_arg7)) (m ((c.tc : Thread nD τ).loc main_arg8))))
          (m ((c.tc : Thread nD τ).loc main_arg1)) (m ((c.tc : Thread nD τ).loc main_arg2))
          (m ((c.tc : Thread nD τ).loc main_arg9)) (m ((c.tc : Thread nD τ).loc main_arg10)) (m ((c.tc : Thread nD τ).loc main_arg11)) := by
  unfold Cert.ReferenceIdeal.Value.res_main_v76
  rfl

/-- The printed dimension numbers are the plain ones. -/
theorem dot128_plain : dot_S50000x128_S128x128_S50000x128_1_0_0_1_n_n = DotDims.plain 50000 128 128 := rfl
theorem dot64_plain : dot_S50000x128_S128x64_S50000x64_1_0_0_1_n_n = DotDims.plain 50000 128 64 := rfl

/-- A 128-wide layer before its activation, entry by entry. -/
theorem lin128_eq (h : Feat) (src dst : Edges) (Ws Wn : FVec Ideal S128x128 .f32)
    (b : FVec Ideal S128 .f32) :
    lin128 h src dst Ws Wn b
      = Cert.Sage.layer (R := 50000) (D := 128) id h (divided (agg h src dst) dst) Ws Wn (fun j => b (ix1 j)) := by
  funext i
  obtain ⟨r, j, rfl⟩ : ∃ (r : Fin 50000) (j : Fin 128), i = ix2 r j := ⟨i 0, i 1, eq_ix2 i⟩
  unfold lin128
  rw [dot128_plain]
  simp only [Host.dotGeneral]
  show (FloatOps.dotGeneral (F := Ideal) (DotDims.plain 50000 128 128) none _ h Ws (ix2 r j)
        + FloatOps.dotGeneral (F := Ideal) (DotDims.plain 50000 128 128) none _ (divided (agg h src dst) dst) Wn (ix2 r j))
        + broadcastInDim S50000x128 ![0, 1] bcast_S1x128_S50000x128_0_1 (broadcastInDim S1x128 ![1] bcast_S128_S1x128_1 b) (ix2 r j) = _
  rw [LibPlainDot.dotGeneral_apply, LibPlainDot.dotGeneral_apply, LibHostBroadcast.row_to_mat_apply rfl rfl,
    LibHostBroadcast.vec_to_row_apply rfl]
  rfl

/-- The 64-wide layer, entry by entry. -/
theorem lin64_eq (h : Feat) (src dst : Edges) (Ws Wn : FVec Ideal S128x64 .f32)
    (b : FVec Ideal S64 .f32) :
    lin64 h src dst Ws Wn b
      = Cert.Sage.layer (R := 50000) (D := 64) id h (divided (agg h src dst) dst) Ws Wn (fun j => b (ix1 j)) := by
  funext i
  obtain ⟨r, j, rfl⟩ : ∃ (r : Fin 50000) (j : Fin 64), i = ix2 r j := ⟨i 0, i 1, eq_ix2 i⟩
  unfold lin64
  rw [dot64_plain]
  simp only [Host.dotGeneral]
  show (FloatOps.dotGeneral (F := Ideal) (DotDims.plain 50000 128 64) none _ h Ws (ix2 r j)
        + FloatOps.dotGeneral (F := Ideal) (DotDims.plain 50000 128 64) none _ (divided (agg h src dst) dst) Wn (ix2 r j))
        + broadcastInDim S50000x64 ![0, 1] bcast_S1x64_S50000x64_0_1 (broadcastInDim S1x64 ![1] bcast_S64_S1x64_1 b) (ix2 r j) = _
  rw [LibPlainDot.dotGeneral_apply, LibPlainDot.dotGeneral_apply, LibHostBroadcast.row_to_mat_apply rfl rfl,
    LibHostBroadcast.vec_to_row_apply rfl]
  rfl

/-- The maximum with the broadcast zero is the rectifier at every entry. -/
theorem rect_apply (Y : Feat) (i : S50000x128.Idx) : rect Y i = Cert.Sage.relu (Y i) := by
  unfold rect
  show max (Y i) (broadcastInDim S50000x128 ![] bcast_S_S50000x128 (constant (F := Ideal) S_ .f32 0x00000000#32) i) = max (Y i) 0
  rw [broadcastInDim_scalar_apply]
  show max (Y i) (Ideal.ofBits .f32 0x00000000#32) = _
  rw [Ideal.ofBits_zero_f32]

/-- A rectified 128-wide layer is the rectified `layer`. -/
theorem rect_lin128_eq (h : Feat) (src dst : Edges) (Ws Wn : FVec Ideal S128x128 .f32)
    (b : FVec Ideal S128 .f32) :
    rect (lin128 h src dst Ws Wn b)
      = Cert.Sage.layer (R := 50000) (D := 128) Cert.Sage.relu h (divided (agg h src dst) dst) Ws Wn (fun j => b (ix1 j)) := by
  funext i
  rw [rect_apply, lin128_eq]
  rfl

end Cert.ReferenceIdeal.Layers

end
-- ==== Proof.MeanLaw.lean ====
/-
  The neighbour mean, spelt two ways, is one array.
  With the row sums `A` [50000, 128] and the in-degrees `dg` [50000], write `d = max(dg, 1)` entry by entry. One
  program multiplies `A` by the column `1 / d` copied across the 128 features; the other divides `A` by the column `d`
  copied across. At entry (r, k) these are `A(r, k) · (1 / d(r))` and `A(r, k) / d(r)`: equal because `d(r) ≥ 1` is
  not zero (`Cert.Sage.mul_recip_eq_div`). The copies are the host's `broadcast_in_dim` [50000] → [50000, 1] →
  [50000, 128], and the ones are the scalar one broadcast to [50000]; the three broadcast records are parameters, so
  the statement serves both programs' spellings.
-/
import proofs.«157840_j54443005444676_1_alg».proof.Proof.SageSpec
import proofs.«157840_j54443005444676_1_alg».proof.Proof.LibHostBroadcast
import Idealize.ShloMosaic.Lib.IdealHost

noncomputable section

namespace Cert.Sage

open Idealize.ShloMosaic Idealize.ShloMosaic.ValueIdx

/-- The scalar one broadcast to a vector is one at every entry. -/
theorem ones_apply {n : ℕ} (h0 : (⟨0, ![]⟩ : Shape).BroadcastsInDim ⟨1, ![n]⟩ ![]) (i : (⟨1, ![n]⟩ : Shape).Idx) :
    broadcastInDim (⟨1, ![n]⟩ : Shape) ![] h0 (constant (F := Ideal) ⟨0, ![]⟩ .f32 0x3F800000#32) i = (1 : EReal) := by
  rw [broadcastInDim_scalar_apply]
  exact one_f32

/-- The product with the copied column of reciprocals is the quotient by the copied column. -/
theorem mean_eq (A : FVec Ideal ⟨2, ![50000, 128]⟩ .f32) (dg : FVec Ideal ⟨1, ![50000]⟩ .f32)
    (h0 : (⟨0, ![]⟩ : Shape).BroadcastsInDim ⟨1, ![50000]⟩ ![])
    {d1 : Fin 1 → Fin 2} (hd1 : d1 0 = 0) (h1 : (⟨1, ![50000]⟩ : Shape).BroadcastsInDim ⟨2, ![50000, 1]⟩ d1)
    {d2 : Fin 2 → Fin 2} (hd20 : d2 0 = 0) (hd21 : d2 1 = 1)
    (h2 : (⟨2, ![50000, 1]⟩ : Shape).BroadcastsInDim ⟨2, ![50000, 128]⟩ d2) :
    mulf A (broadcastInDim ⟨2, ![50000, 128]⟩ d2 h2 (broadcastInDim ⟨2, ![50000, 1]⟩ d1 h1
        (Host.divf (F := Ideal) (broadcastInDim ⟨1, ![50000]⟩ ![] h0 (constant (F := Ideal) ⟨0, ![]⟩ .f32 0x3F800000#32))
          (maximumf dg (broadcastInDim ⟨1, ![50000]⟩ ![] h0 (constant (F := Ideal) ⟨0, ![]⟩ .f32 0x3F800000#32))))))
      = Host.divf (F := Ideal) A (broadcastInDim ⟨2, ![50000, 128]⟩ d2 h2 (broadcastInDim ⟨2, ![50000, 1]⟩ d1 h1
          (maximumf dg (broadcastInDim ⟨1, ![50000]⟩ ![] h0 (constant (F := Ideal) ⟨0, ![]⟩ .f32 0x3F800000#32))))) := by
  funext i
  obtain ⟨r, k, rfl⟩ : ∃ (r : Fin 50000) (k : Fin 128), i = ix2 r k := ⟨i 0, i 1, eq_ix2 i⟩
  show A (ix2 r k) * _ = Ideal.div (A (ix2 r k)) _
  rw [LibHostBroadcast.col_to_mat_apply hd20 hd21, LibHostBroadcast.vec_to_col_apply hd1,
    LibHostBroadcast.col_to_mat_apply hd20 hd21, LibHostBroadcast.vec_to_col_apply hd1]
  show A (ix2 r k) * Ideal.div (broadcastInDim (⟨1, ![50000]⟩ : Shape) ![] h0 (constant (F := Ideal) ⟨0, ![]⟩ .f32 0x3F800000#32) (ix1 r))
        (max (dg (ix1 r)) (broadcastInDim (⟨1, ![50000]⟩ : Shape) ![] h0 (constant (F := Ideal) ⟨0, ![]⟩ .f32 0x3F800000#32) (ix1 r)))
      = Ideal.div (A (ix2 r k))
        (max (dg (ix1 r)) (broadcastInDim (⟨1, ![50000]⟩ : Shape) ![] h0 (constant (F := Ideal) ⟨0, ![]⟩ .f32 0x3F800000#32) (ix1 r)))
  rw [ones_apply]
  exact mul_recip_eq_div _ _

end Cert.Sage

end
-- ==== Proof.Bridge.lean ====
/-
  The kernel's three layers are the reference's three layers.
  For any features `h` and any edge lists, the kernel's neighbour mean `agg · (1 / max(degree, 1))` is the reference's
  `agg / max(degree, 1)`: the two programs' `agg` and `degree` are one and the same chain of host operations (the index
  wrap, the row gather, the two scatter-additions), so only the law of `Cert.Sage.mean_eq` is between them. The
  kernel's bias, a vector reshaped to one row and read along it, is the vector. With both rewritten, each kernel layer
  is syntactically the reference's, innermost first. Nothing is assumed of the arrays: they range over the extended
  reals.
-/
import proofs.«157840_j54443005444676_1_alg».proof.Proof.KernelValue
import proofs.«157840_j54443005444676_1_alg».proof.Proof.RefLayer
import proofs.«157840_j54443005444676_1_alg».proof.Proof.MeanLaw
import Idealize.ShloMosaic.Lib.ValueLayout

noncomputable section

namespace Cert.Bridge

open Idealize.ShloMosaic Idealize.ShloMosaic.ValueIdx

/-- The kernel's neighbour mean is the reference's. -/
theorem mean_eq (h : FVec Ideal ⟨2, ![50000, 128]⟩ .f32) (src dst : IVec ⟨1, ![800000]⟩ 32) :
    Cert.KernelIdeal.Host.scaled (Cert.KernelIdeal.Host.agg h src dst) (Cert.KernelIdeal.Host.inv dst)
      = Cert.ReferenceIdeal.Layers.divided (Cert.ReferenceIdeal.Layers.agg h src dst) dst := by
  unfold Cert.KernelIdeal.Host.scaled Cert.KernelIdeal.Host.inv Cert.KernelIdeal.Host.ones
  refine (Cert.Sage.mean_eq (Cert.KernelIdeal.Host.agg h src dst) (Cert.KernelIdeal.Host.deg dst)
    Cert.KernelIdeal.Facts₀.bcast_S_S50000 (d1 := ![0]) rfl Cert.KernelIdeal.Facts₀.bcast_S50000_S50000x1_0
    (d2 := ![0, 1]) rfl rfl Cert.KernelIdeal.Facts₀.bcast_S50000x1_S50000x128_0_1).trans ?_
  rfl

/-- A bias vector reshaped to a row and read along the row is the vector. -/
theorem bias128_eq (b : FVec Ideal ⟨1, ![128]⟩ .f32) : Cert.KernelIdeal.Chain.bias128 b = fun j => b (ix1 j) :=
  funext fun j => shapeCast_a_1a_apply b _ (0 : Fin 1) j
theorem bias64_eq (b : FVec Ideal ⟨1, ![64]⟩ .f32) : Cert.KernelIdeal.Chain.bias64 b = fun j => b (ix1 j) :=
  funext fun j => shapeCast_a_1a_apply b _ (0 : Fin 1) j

open Cert.KernelIdeal.Host in
/-- The kernel's nested layers are the reference's nested layers. -/
theorem layers_eq (a0 : FVec Ideal ⟨2, ![50000, 128]⟩ .f32) (a1 a2 : IVec ⟨1, ![800000]⟩ 32)
    (a3 a4 a6 a7 : FVec Ideal ⟨2, ![128, 128]⟩ .f32) (a5 a8 : FVec Ideal ⟨1, ![128]⟩ .f32)
    (a9 a10 : FVec Ideal ⟨2, ![128, 64]⟩ .f32) (a11 : FVec Ideal ⟨1, ![64]⟩ .f32) :
    Cert.Sage.layer (R := 50000) (D := 64) id
        (Cert.Sage.layer (R := 50000) (D := 128) Cert.Sage.relu
          (Cert.Sage.layer (R := 50000) (D := 128) Cert.Sage.relu a0 (scaled (agg a0 a1 a2) (inv a2)) a3 a4 (Cert.KernelIdeal.Chain.bias128 a5))
          (scaled (agg (Cert.Sage.layer (R := 50000) (D := 128) Cert.Sage.relu a0 (scaled (agg a0 a1 a2) (inv a2)) a3 a4 (Cert.KernelIdeal.Chain.bias128 a5)) a1 a2) (inv a2))
          a6 a7 (Cert.KernelIdeal.Chain.bias128 a8))
        (scaled (agg (Cert.Sage.layer (R := 50000) (D := 128) Cert.Sage.relu
          (Cert.Sage.layer (R := 50000) (D := 128) Cert.Sage.relu a0 (scaled (agg a0 a1 a2) (inv a2)) a3 a4 (Cert.KernelIdeal.Chain.bias128 a5))
          (scaled (agg (Cert.Sage.layer (R := 50000) (D := 128) Cert.Sage.relu a0 (scaled (agg a0 a1 a2) (inv a2)) a3 a4 (Cert.KernelIdeal.Chain.bias128 a5)) a1 a2) (inv a2))
          a6 a7 (Cert.KernelIdeal.Chain.bias128 a8)) a1 a2) (inv a2))
        a9 a10 (Cert.KernelIdeal.Chain.bias64 a11)
      = Cert.ReferenceIdeal.Layers.lin64
          (Cert.ReferenceIdeal.Layers.rect (Cert.ReferenceIdeal.Layers.lin128
            (Cert.ReferenceIdeal.Layers.rect (Cert.ReferenceIdeal.Layers.lin128 a0 a1 a2 a3 a4 a5)) a1 a2 a6 a7 a8))
          a1 a2 a9 a10 a11 := by
  simp only [mean_eq, bias128_eq, bias64_eq, Cert.ReferenceIdeal.Layers.lin64_eq, Cert.ReferenceIdeal.Layers.rect_lin128_eq]

end Cert.Bridge

end
-- ==== Proof.lean ====
/-
  The certificate of a three-layer graph convolution with mean aggregation over 50000 nodes and 800000 edges: the
  kernel — per layer the neighbour sums by host gather and scatter-add, scaled by reciprocal degrees computed once, then
  a tiled kernel region for `h · Ws + mean · Wn + b` with the rectifier in the first two layers — against the reference,
  which divides the neighbour sums by the degrees in every layer and uses the host's `dot_general`.
  Over the extended reals the two end with the same result, entry by entry, for all contents of the arguments:
  a block product is the row block of the whole product (the contraction over the 128 features is not split), a change
  of float format is the identity, the two programs' gather and scatter-add chains are one and the same, and
  `x · (1 / d) = x / d` for `d = max(degree, 1) ≥ 1`. The precondition (finite inputs) is not used.
  The three frames: the kernel's two programs by their frame certificates, the reference by its run with the result
  dropped. The idealization rewrote no operation, so `preserves` has nothing to state.
-/
import proofs.«157840_j54443005444676_1_alg».proof.Defs
import proofs.«157840_j54443005444676_1_alg».proof.Proof.Gen.Kernel
import proofs.«157840_j54443005444676_1_alg».proof.Proof.Patched.Kernel.Frame
import proofs.«157840_j54443005444676_1_alg».proof.Proof.Gen.KernelIdeal
import proofs.«157840_j54443005444676_1_alg».proof.Proof.Patched.KernelIdeal.Frame
import proofs.«157840_j54443005444676_1_alg».proof.Proof.Gen.ReferenceIdeal
import proofs.«157840_j54443005444676_1_alg».proof.Proof.Gen.ReferenceIdeal.Run
import proofs.«157840_j54443005444676_1_alg».proof.Proof.Gen.Pre_finite_inputs
import proofs.«157840_j54443005444676_1_alg».proof.Proof.KernelValue
import proofs.«157840_j54443005444676_1_alg».proof.Proof.RefLayer
import proofs.«157840_j54443005444676_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run, from memories that agree on the arguments, to the same result: the kernel's result buffer ends
    at its three nested layers of the arguments, the reference's at its own three nested layers, and these are one
    array (`Cert.Bridge.layers_eq`). -/
theorem algebraic : Cert.algebraic_KernelIdeal_ReferenceIdeal := by
  intro m ρ m' ρ' _ hagree
  refine ⟨fun c => Cert.KernelIdeal.Chain.K3 m c, Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Layers.res_eq]
  obtain ⟨g0, g1, g2, g3, g4, g5, g6, g7, g8, g9, g10, g11⟩ := hagree c
  rw [g0, g1, g2, g3, g4, g5, g6, g7, g8, g9, g10, g11]
  exact (Cert.Bridge.layers_eq _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
